-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x64 : Shape := ⟨2, ![600000, 64]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  reducesTo_S_S_d : S_.ReducesTo [] S_

variable [Facts]

def fn_part3 {F : FTy → Type} [FloatOps F] (main_arg12 : FVec F S128 .f32) (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  let main_v53 : FVec F S128 .f32 := Host.absf main_arg12
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  main_v57

def fn_part2 {F : FTy → Type} [FloatOps F] (main_arg8 : FVec F S128 .f32) (main_arg9 : FVec F S128x128 .f32) (main_arg10 : FVec F S128 .f32) (main_arg11 : FVec F S_ .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S_ .f32 := Host.absf main_arg11
  let main_cst_18 : FVec F S_ .f32 := constant S_ .f32 0x7F800000#32
  let main_v50 : IVec S_ 1 := cmpf .olt main_v49 main_cst_18
  fn_part3 (F := F) main_arg12 main_v48 main_v50

def fn_part1 {F : FTy → Type} [FloatOps F] (main_arg5 : FVec F S128x128 .f32) (main_arg6 : FVec F S128 .f32) (main_arg7 : FVec F S64x128 .f32) (main_arg8 : FVec F S128 .f32) (main_arg9 : FVec F S128x128 .f32) (main_arg10 : FVec F S128 .f32) (main_arg11 : FVec F S_ .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x600000 32) (main_arg2 : FVec F S600000x64 .f32) (main_arg3 : FVec F S128x128 .f32) (main_arg4 : FVec F S128 .f32) (main_arg5 : FVec F S128x128 .f32) (main_arg6 : FVec F S128 .f32) (main_arg7 : FVec F S64x128 .f32) (main_arg8 : FVec F S128 .f32) (main_arg9 : FVec F S128x128 .f32) (main_arg10 : FVec F S128 .f32) (main_arg11 : FVec F S_ .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S600000x64 : Shape := ⟨2, ![600000, 64]⟩
abbrev S128x128 : Shape := ⟨2, ![128, 128]⟩
abbrev S128 : Shape := ⟨1, ![128]⟩
abbrev S64x128 : Shape := ⟨2, ![64, 128]⟩
abbrev S_ : Shape := ⟨0, ![]⟩
abbrev S1x600000 : Shape := ⟨2, ![1, 600000]⟩
abbrev S600000 : Shape := ⟨1, ![600000]⟩
abbrev S100000 : Shape := ⟨1, ![100000]⟩
abbrev S600000x1 : Shape := ⟨2, ![600000, 1]⟩
abbrev S600000x128 : Shape := ⟨2, ![600000, 128]⟩
abbrev S10000x128 : Shape := ⟨2, ![10000, 128]⟩
abbrev S10000x64 : Shape := ⟨2, ![10000, 64]⟩
abbrev S10000x1 : Shape := ⟨2, ![10000, 1]⟩
abbrev S1x128 : Shape := ⟨2, ![1, 128]⟩
abbrev S10000 : Shape := ⟨1, ![10000]⟩

abbrev nBuf : Space → Nat
  | .hbm => 76
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S_, .f32⟩
  | .hbm, ⟨28, _⟩ => ⟨S600000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000, .f32⟩
  | .hbm, ⟨51, _⟩ => ⟨S600000, .f32⟩
  | .hbm, ⟨52, _⟩ => ⟨S_, .f32⟩
  | .hbm, ⟨53, _⟩ => ⟨S600000, .f32⟩
  | .hbm, ⟨54, _⟩ => ⟨S600000, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S600000x1, .f32⟩
  | .hbm, ⟨65, _⟩ => ⟨S600000x128, .f32⟩
  | .hbm, ⟨66, _⟩ => ⟨S_, .f32⟩
  | .hbm, ⟨67, _⟩ => ⟨S100000x128, .f32⟩
  | .hbm, ⟨68, _⟩ => ⟨S600000x1, .i32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S10000x128, .f32⟩
  | .local _ .vmem, ⟨22, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  reduces_S10000x128_S10000 : S10000x128.Reduces [1] S10000
  shapeCasts_S10000_S10000x1 : S10000.ShapeCasts S10000x1
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S600000x128.size a
  hwx0_0 : ∀ i : grid0.Coords, EltTy.bits .f32 = 32 ∨ (Rect.block (s := S600000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S600000x64.size a
  hwx0_1 : ∀ i : grid0.Coords, EltTy.bits .f32 = 32 ∨ (Rect.block (s := S600000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S600000x1.size a
  hwx0_2 : ∀ i : grid0.Coords, EltTy.bits .f32 = 32 ∨ (Rect.block (s := S600000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S600000x128.size a
  hwx0_7 : ∀ i : grid0.Coords, EltTy.bits .f32 = 32 ∨ (Rect.block (s := S600000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v38) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x64 : Shape := ⟨2, ![600000, 64]⟩
abbrev S128x128 : Shape := ⟨2, ![128, 128]⟩
abbrev S128 : Shape := ⟨1, ![128]⟩
abbrev S64x128 : Shape := ⟨2, ![64, 128]⟩
abbrev S_ : Shape := ⟨0, ![]⟩
abbrev S1x600000 : Shape := ⟨2, ![1, 600000]⟩
abbrev S600000 : Shape := ⟨1, ![600000]⟩
abbrev S100000 : Shape := ⟨1, ![100000]⟩
abbrev S600000x1 : Shape := ⟨2, ![600000, 1]⟩
abbrev S600000x128 : Shape := ⟨2, ![600000, 128]⟩
abbrev S1x128 : Shape := ⟨2, ![1, 128]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S_, .f32⟩
  | .hbm, ⟨28, _⟩ => ⟨S600000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000, .f32⟩
  | .hbm, ⟨51, _⟩ => ⟨S600000, .f32⟩
  | .hbm, ⟨52, _⟩ => ⟨S_, .f32⟩
  | .hbm, ⟨53, _⟩ => ⟨S600000, .f32⟩
  | .hbm, ⟨54, _⟩ => ⟨S600000, .f32⟩
  | .hbm, ⟨55, _⟩ => ⟨S600000x128, .f32⟩
  | .hbm, ⟨56, _⟩ => ⟨S1x128, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S600000x128, .f32⟩
  | .hbm, ⟨61, _⟩ => ⟨S600000x128, .f32⟩
  | .hbm, ⟨62, _⟩ => ⟨S600000x128, .f32⟩
  | .hbm, ⟨63, _⟩ => ⟨S1x128, .f32⟩
  | .hbm, ⟨64, _⟩ => ⟨S600000x128, .f32⟩
  | .hbm, ⟨65, _⟩ => ⟨S600000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S600000x128, .f32⟩
  | .hbm, ⟨76, _⟩ => ⟨S600000x1, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S100000x128, .f32⟩
  | .hbm, ⟨81, _⟩ => ⟨S600000x1, .i32⟩
  | .hbm, ⟨82, _⟩ => ⟨S100000x128, .f32⟩
  | .hbm, ⟨83, _⟩ => ⟨S_, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S_, .f32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call0_cst : Ref sig .tc := ⟨.hbm, 59, rfl⟩
abbrev main_call0_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call1_cst : Ref sig .tc := ⟨.hbm, 92, rfl⟩
abbrev main_call1_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S600000x64_S64x128_S600000x128_1_0_0_1_n_n_wf : DotDims.WF S600000x64 S64x128 S600000x128 [1] [0] [0] [1] [] []
  dot_S600000x128_S128x128_S600000x128_1_0_0_1_n_n_wf : DotDims.WF S600000x128 S128x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerRun.lean ====
/-
  The program's run with its result named. The program is two kernel launches among stretches of host operations;
  its run is the chain of those four segments, and the contents of every buffer at each boundary are a fold from the
  launch memory: the host operations' results after a stretch, and after a launch each of its arrays at what the grid's
  write-backs leave. Read at the end of the chain, the result array holds the last fold's contents at its buffer,
  and every argument array holds what it held at launch (no segment writes one).
-/
import proofs.«145459_j88630945120295_1_alg».proof.Proof.KernelIdealFrameP

set_option maxRecDepth 16384

noncomputable section

namespace Cert.KernelIdeal.ValueRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the contents the last boundary
    gives its buffer, and the argument arrays end as launched. -/
theorem run : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.ValueRun

end
-- ==== Proof.Spec.lean ====
/-
  One layer of message passing over a graph whose edges carry features, followed by a node update, written entry
  by entry as functions of the arrays, at the ideal values (extended reals, exact operations).

  * `mlp`: entry `(p, q)` of a two-layer perceptron applied to the rows of `x`: the first layer's row
    `x W1 + b1`, clamped below at zero, times the second layer's column `q`, plus `b2 q`. It reads row `p` of `x` only.
  * `edgeMsg`: the message on edge `p`: the source node's row plus the perceptron of the edge's features, the sum
    scaled by the edge's weight (a column).
  * `nodeOut`: the node update: the perceptron of the combined row plus the node's own row (the residual `resid`),
    divided by the root of its mean square over the 128 columns (plus a small constant), times a per-column gain.

  Each of them reads ONE row of its row-indexed operands, so a block of consecutive rows of the result is the same
  function of the operands' blocks (`mlp_congr`, `edgeMsg_congr`, `nodeOut_congr`): the number of rows `a` is a
  parameter, and the functions are used both at a block's height and at the whole array's.
-/
import Idealize.ShloMosaic.Lib.ValueIdx
import Idealize.ShloMosaic.PureOps.Ideal.Laws

noncomputable section

namespace Cert.Gine

open Idealize.ShloMosaic Idealize.ShloMosaic.ValueIdx

variable {a a' K H b : ℕ}

/-- Entry `(p, q)` of `max (x W1 + b1) 0 · W2 + b2`. -/
def mlp (x : FVec Ideal ⟨2, ![a, K]⟩ .f32) (W1 : FVec Ideal ⟨2, ![K, H]⟩ .f32) (b1 : FVec Ideal ⟨1, ![H]⟩ .f32)
    (W2 : FVec Ideal ⟨2, ![H, b]⟩ .f32) (b2 : FVec Ideal ⟨1, ![b]⟩ .f32) (p : Fin a) (q : Fin b) : EReal :=
  (∑ k : Fin H, max ((∑ j : Fin K, x (ix2 p j) * W1 (ix2 j k)) + b1 (ix1 k)) (Ideal.ofBits .f32 0x00000000#32) * W2 (ix2 k q))
    + b2 (ix1 q)

/-- The perceptron's entry `(p, q)` depends on row `p` of `x` only. -/
theorem mlp_congr (x : FVec Ideal ⟨2, ![a, K]⟩ .f32) (X : FVec Ideal ⟨2, ![a', K]⟩ .f32) (W1 : FVec Ideal ⟨2, ![K, H]⟩ .f32)
    (b1 : FVec Ideal ⟨1, ![H]⟩ .f32) (W2 : FVec Ideal ⟨2, ![H, b]⟩ .f32) (b2 : FVec Ideal ⟨1, ![b]⟩ .f32) (p : Fin a) (P : Fin a')
    (q : Fin b) (h : ∀ j : Fin K, x (ix2 p j) = X (ix2 P j)) : mlp x W1 b1 W2 b2 p q = mlp X W1 b1 W2 b2 P q := by
  unfold mlp
  simp only [h]

/-- The message of each edge: `(x_src + mlp(edge features)) · weight`. -/
def edgeMsg (xs : FVec Ideal ⟨2, ![a, 128]⟩ .f32) (ea : FVec Ideal ⟨2, ![a, 64]⟩ .f32) (ew : FVec Ideal ⟨2, ![a, 1]⟩ .f32)
    (W1 : FVec Ideal ⟨2, ![64, 128]⟩ .f32) (b1 : FVec Ideal ⟨1, ![128]⟩ .f32) (W2 : FVec Ideal ⟨2, ![128, 128]⟩ .f32)
    (b2 : FVec Ideal ⟨1, ![128]⟩ .f32) : FVec Ideal ⟨2, ![a, 128]⟩ .f32 :=
  fun i => (xs i + mlp ea W1 b1 W2 b2 (i 0) (i 1)) * ew (ix2 (i 0) (0 : Fin 1))

theorem edgeMsg_apply (xs : FVec Ideal ⟨2, ![a, 128]⟩ .f32) (ea : FVec Ideal ⟨2, ![a, 64]⟩ .f32) (ew : FVec Ideal ⟨2, ![a, 1]⟩ .f32)
    (W1 : FVec Ideal ⟨2, ![64, 128]⟩ .f32) (b1 : FVec Ideal ⟨1, ![128]⟩ .f32) (W2 : FVec Ideal ⟨2, ![128, 128]⟩ .f32)
    (b2 : FVec Ideal ⟨1, ![128]⟩ .f32) (p : Fin a) (q : Fin 128) :
    edgeMsg xs ea ew W1 b1 W2 b2 (ix2 p q) = (xs (ix2 p q) + mlp ea W1 b1 W2 b2 p q) * ew (ix2 p (0 : Fin 1)) := rfl

/-- Edge `p`'s message reads row `p` of the three edge-indexed operands only. -/
theorem edgeMsg_congr (xs : FVec Ideal ⟨2, ![a, 128]⟩ .f32) (ea : FVec Ideal ⟨2, ![a, 64]⟩ .f32) (ew : FVec Ideal ⟨2, ![a, 1]⟩ .f32)
    (Xs : FVec Ideal ⟨2, ![a', 128]⟩ .f32) (Ea : FVec Ideal ⟨2, ![a', 64]⟩ .f32) (Ew : FVec Ideal ⟨2, ![a', 1]⟩ .f32)
    (W1 : FVec Ideal ⟨2, ![64, 128]⟩ .f32) (b1 : FVec Ideal ⟨1, ![128]⟩ .f32) (W2 : FVec Ideal ⟨2, ![128, 128]⟩ .f32)
    (b2 : FVec Ideal ⟨1, ![128]⟩ .f32) (p : Fin a) (P : Fin a') (q : Fin 128)
    (hx : xs (ix2 p q) = Xs (ix2 P q)) (he : ∀ j : Fin 64, ea (ix2 p j) = Ea (ix2 P j))
    (hw : ew (ix2 p (0 : Fin 1)) = Ew (ix2 P (0 : Fin 1))) :
    edgeMsg xs ea ew W1 b1 W2 b2 (ix2 p q) = edgeMsg Xs Ea Ew W1 b1 W2 b2 (ix2 P q) := by
  rw [edgeMsg_apply, edgeMsg_apply, hx, hw, mlp_congr ea Ea W1 b1 W2 b2 p P q he]

/-- The node's row before normalisation: the perceptron of the combined row plus the node's own row. -/
def resid (cb x : FVec Ideal ⟨2, ![a, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (p : Fin a) (q : Fin 128) : EReal :=
  mlp cb W1 b1 W2 b2 p q + x (ix2 p q)

theorem resid_congr (cb x : FVec Ideal ⟨2, ![a, 128]⟩ .f32) (Cb X : FVec Ideal ⟨2, ![a', 128]⟩ .f32)
    (W1 : FVec Ideal ⟨2, ![128, 128]⟩ .f32) (b1 : FVec Ideal ⟨1, ![128]⟩ .f32) (W2 : FVec Ideal ⟨2, ![128, 128]⟩ .f32)
    (b2 : FVec Ideal ⟨1, ![128]⟩ .f32) (p : Fin a) (P : Fin a') (q : Fin 128)
    (hc : ∀ j : Fin 128, cb (ix2 p j) = Cb (ix2 P j)) (hx : ∀ j : Fin 128, x (ix2 p j) = X (ix2 P j)) :
    resid cb x W1 b1 W2 b2 p q = resid Cb X W1 b1 W2 b2 P q := by
  unfold resid
  rw [mlp_congr cb Cb W1 b1 W2 b2 p P q hc, hx q]

/-- The node update: the residual row times the reciprocal root of its mean square plus a constant, times the gain. -/
def nodeOut (cb x : FVec Ideal ⟨2, ![a, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (g : FVec Ideal ⟨1, ![128]⟩ .f32) :
    FVec Ideal ⟨2, ![a, 128]⟩ .f32 :=
  fun i => resid cb x W1 b1 W2 b2 (i 0) (i 1)
    * Ideal.rsqrt (Ideal.div (∑ k : Fin 128, resid cb x W1 b1 W2 b2 (i 0) k * resid cb x W1 b1 W2 b2 (i 0) k)
        (Ideal.ofBits .f32 0x43000000#32) + Ideal.ofBits .f32 0x34000000#32)
    * g (ix1 (i 1))

theorem nodeOut_apply (cb x : FVec Ideal ⟨2, ![a, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (g : FVec Ideal ⟨1, ![128]⟩ .f32) (p : Fin a) (q : Fin 128) :
    nodeOut cb x W1 b1 W2 b2 g (ix2 p q) = resid cb x W1 b1 W2 b2 p q
      * Ideal.rsqrt (Ideal.div (∑ k : Fin 128, resid cb x W1 b1 W2 b2 p k * resid cb x W1 b1 W2 b2 p k)
          (Ideal.ofBits .f32 0x43000000#32) + Ideal.ofBits .f32 0x34000000#32)
      * g (ix1 q) := rfl

/-- Node `p`'s update reads row `p` of the two node-indexed operands only. -/
theorem nodeOut_congr (cb x : FVec Ideal ⟨2, ![a, 128]⟩ .f32) (Cb X : FVec Ideal ⟨2, ![a', 128]⟩ .f32)
    (W1 : FVec Ideal ⟨2, ![128, 128]⟩ .f32) (b1 : FVec Ideal ⟨1, ![128]⟩ .f32) (W2 : FVec Ideal ⟨2, ![128, 128]⟩ .f32)
    (b2 : FVec Ideal ⟨1, ![128]⟩ .f32) (g : FVec Ideal ⟨1, ![128]⟩ .f32) (p : Fin a) (P : Fin a') (q : Fin 128)
    (hc : ∀ j : Fin 128, cb (ix2 p j) = Cb (ix2 P j)) (hx : ∀ j : Fin 128, x (ix2 p j) = X (ix2 P j)) :
    nodeOut cb x W1 b1 W2 b2 g (ix2 p q) = nodeOut Cb X W1 b1 W2 b2 g (ix2 P q) := by
  rw [nodeOut_apply, nodeOut_apply]
  simp only [resid_congr cb x Cb X W1 b1 W2 b2 p P _ hc hx]

end Cert.Gine

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.VecSpelling.lean ====
/-
  The vector unit's spelling of the perceptron, the edge message and the node update, read entry by entry: each is the
  specification's function (Spec.lean) of the loaded blocks, for any number of rows `a`.

  A matrix product accumulated into the zero splat is, at entry `(p, k)`, the sum over the contracted axis of row `p`
  times column `k`; a bias vector cast to one row and repeated down the rows reads the vector at the column; a
  comparison with the zero splat is the maximum with zero; a weight column repeated along the rows reads the column at
  the row; the sum of a row's squares is a lane reduction from zero, cast to a column. Nothing here needs a finiteness
  hypothesis: no term is moved across a sum or cancelled, the two sides are the same operations in the same order.
-/
import proofs.«145459_j88630945120295_1_alg».proof.Proof.Spec
import proofs.«145459_j88630945120295_1_alg».proof.Proof.LibMatmulIx
import proofs.«145459_j88630945120295_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.Gine.VecUnit

open Idealize.ShloMosaic Idealize.ShloMosaic.ValueIdx Cert.Gine Cert.Attn.Layout

variable {a K H b : ℕ}

/-- Dimension numbers that contract the left operand's columns with the right operand's rows, no batch axes. -/
structure StdDot (D : DotDims ⟨2, ![a, K]⟩ ⟨2, ![K, b]⟩ ⟨2, ![a, b]⟩) : Prop where
  hr : D.contr.rank = 1
  hs : D.contr.size ⟨0, by omega⟩ = K
  hl0 : ∀ i q, (D.lhsIdx i q 0).val = (i 0).val
  hl1 : ∀ i q, (D.lhsIdx i q 1).val = (q ⟨0, by omega⟩).val
  hr0 : ∀ i q, (D.rhsIdx i q 0).val = (q ⟨0, by omega⟩).val
  hr1 : ∀ i q, (D.rhsIdx i q 1).val = (i 1).val

/-- A bias vector cast to one row and repeated down `a` rows reads, at `(p, q)`, the vector at `q`. -/
theorem biasRow_apply (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The first layer at `(p, k)`: row `p` of `x` times column `k` of `W1`, plus the bias, clamped below at zero. -/
theorem hidden_apply (D : DotDims ⟨2, ![a, K]⟩ ⟨2, ![K, b]⟩ ⟨2, ![a, b]⟩) (hD : StdDot D)
    (x : FVec Ideal ⟨2, ![a, K]⟩ .f32) (W1 : FVec Ideal ⟨2, ![K, b]⟩ .f32) (b1 : FVec Ideal ⟨1, ![b]⟩ .f32)
    (hc : (⟨1, ![b]⟩ : Shape).ShapeCasts ⟨2, ![1, b]⟩) (hb : (⟨2, ![1, b]⟩ : Shape).Broadcasts ⟨2, ![a, b]⟩)
    (p : Fin a) (k : Fin b) :
    maximumf (addf (matmul D none x W1 (constant (F := Ideal) ⟨2, ![a, b]⟩ .f32 0x00000000#32))
        (broadcastTo ⟨2, ![a, b]⟩ (shapeCast ⟨2, ![1, b]⟩ b1 hc) hb))
      (broadcast ⟨2, ![a, b]⟩ (Scalar.ofBits (F := Ideal) .f32 0x00000000#32)) (ix2 p k)
    = max ((∑ j : Fin K, x (ix2 p j) * W1 (ix2 j k)) + b1 (ix1 k)) (Ideal.ofBits .f32 0x00000000#32) := by
  rw [maximumf_apply, addf_apply, MatmulIx.matmul_zero_ix2 D hD.hr hD.hs hD.hl0 hD.hl1 hD.hr0 hD.hr1, biasRow_apply,
    broadcast_apply]
  rfl

/-- Both layers at `(p, q)`: the specification's perceptron. -/
theorem mlp_vec (D1 : DotDims ⟨2, ![a, K]⟩ ⟨2, ![K, H]⟩ ⟨2, ![a, H]⟩) (h1 : StdDot D1)
    (D2 : DotDims ⟨2, ![a, H]⟩ ⟨2, ![H, b]⟩ ⟨2, ![a, b]⟩) (h2 : StdDot D2)
    (x : FVec Ideal ⟨2, ![a, K]⟩ .f32) (W1 : FVec Ideal ⟨2, ![K, H]⟩ .f32) (b1 : FVec Ideal ⟨1, ![H]⟩ .f32)
    (W2 : FVec Ideal ⟨2, ![H, b]⟩ .f32) (b2 : FVec Ideal ⟨1, ![b]⟩ .f32)
    (hc1 : (⟨1, ![H]⟩ : Shape).ShapeCasts ⟨2, ![1, H]⟩) (hb1 : (⟨2, ![1, H]⟩ : Shape).Broadcasts ⟨2, ![a, H]⟩)
    (hc2 : (⟨1, ![b]⟩ : Shape).ShapeCasts ⟨2, ![1, b]⟩) (hb2 : (⟨2, ![1, b]⟩ : Shape).Broadcasts ⟨2, ![a, b]⟩)
    (p : Fin a) (q : Fin b) :
    addf (matmul D2 none
        (maximumf (addf (matmul D1 none x W1 (constant (F := Ideal) ⟨2, ![a, H]⟩ .f32 0x00000000#32))
            (broadcastTo ⟨2, ![a, H]⟩ (shapeCast ⟨2, ![1, H]⟩ b1 hc1) hb1))
          (broadcast ⟨2, ![a, H]⟩ (Scalar.ofBits (F := Ideal) .f32 0x00000000#32)))
        W2 (constant (F := Ideal) ⟨2, ![a, b]⟩ .f32 0x00000000#32))
      (broadcastTo ⟨2, ![a, b]⟩ (shapeCast ⟨2, ![1, b]⟩ b2 hc2) hb2) (ix2 p q)
    = mlp x W1 b1 W2 b2 p q := by
  rw [addf_apply, MatmulIx.matmul_zero_ix2 D2 h2.hr h2.hs h2.hl0 h2.hl1 h2.hr0 h2.hr1, biasRow_apply]
  unfold mlp
  simp only [hidden_apply D1 h1 x W1 b1 hc1 hb1 p]

/-- The edge kernel's stored value is the specification's message of its loaded blocks. -/
theorem edge_vec (D1 : DotDims ⟨2, ![a, 64]⟩ ⟨2, ![64, 128]⟩ ⟨2, ![a, 128]⟩) (h1 : StdDot D1)
    (D2 : DotDims ⟨2, ![a, 128]⟩ ⟨2, ![128, 128]⟩ ⟨2, ![a, 128]⟩) (h2 : StdDot D2)
    (xs : FVec Ideal ⟨2, ![a, 128]⟩ .f32) (ea : FVec Ideal ⟨2, ![a, 64]⟩ .f32) (ew : FVec Ideal ⟨2, ![a, 1]⟩ .f32)
    (W1 : FVec Ideal ⟨2, ![64, 128]⟩ .f32) (b1 : FVec Ideal ⟨1, ![128]⟩ .f32) (W2 : FVec Ideal ⟨2, ![128, 128]⟩ .f32)
    (b2 : FVec Ideal ⟨1, ![128]⟩ .f32)
    (hxx : (⟨2, ![a, 128]⟩ : Shape).ShapeCasts ⟨2, ![a, 128]⟩) (hww : (⟨2, ![a, 1]⟩ : Shape).ShapeCasts ⟨2, ![a, 1]⟩)
    (hwb : (⟨2, ![a, 1]⟩ : Shape).Broadcasts ⟨2, ![a, 128]⟩)
    (hc : (⟨1, ![128]⟩ : Shape).ShapeCasts ⟨2, ![1, 128]⟩) (hb : (⟨2, ![1, 128]⟩ : Shape).Broadcasts ⟨2, ![a, 128]⟩) :
    mulf (addf (shapeCast ⟨2, ![a, 128]⟩ xs hxx)
        (addf (matmul D2 none
            (maximumf (addf (matmul D1 none ea W1 (constant (F := Ideal) ⟨2, ![a, 128]⟩ .f32 0x00000000#32))
                (broadcastTo ⟨2, ![a, 128]⟩ (shapeCast ⟨2, ![1, 128]⟩ b1 hc) hb))
              (broadcast ⟨2, ![a, 128]⟩ (Scalar.ofBits (F := Ideal) .f32 0x00000000#32)))
            W2 (constant (F := Ideal) ⟨2, ![a, 128]⟩ .f32 0x00000000#32))
          (broadcastTo ⟨2, ![a, 128]⟩ (shapeCast ⟨2, ![1, 128]⟩ b2 hc) hb)))
      (broadcastTo ⟨2, ![a, 128]⟩ (shapeCast ⟨2, ![a, 1]⟩ ew hww) hwb)
    = edgeMsg xs ea ew W1 b1 W2 b2 := by
  funext j
  obtain ⟨p, q, rfl⟩ : ∃ (p : Fin a) (q : Fin 128), j = ix2 p q := ⟨j 0, j 1, eq_ix2 j⟩
  rw [edgeMsg_apply, mulf_apply, addf_apply, shapeCast_self, mlp_vec D1 h1 D2 h2 ea W1 b1 W2 b2 hc hb hc hb p q,
    broadcastTo_a1_ab_apply, shapeCast_self]

/-- The node kernel's stored value is the specification's node update of its loaded blocks; `r` is the residual the body
    computes once and uses three times (`hr`: its spelling). -/
theorem node_vec (D1 : DotDims ⟨2, ![a, 128]⟩ ⟨2, ![128, 128]⟩ ⟨2, ![a, 128]⟩) (h1 : StdDot D1)
    (cb x : FVec Ideal ⟨2, ![a, 128]⟩ .f32)
    (W1 : FVec Ideal ⟨2, ![128, 128]⟩ .f32) (b1 : FVec Ideal ⟨1, ![128]⟩ .f32) (W2 : FVec Ideal ⟨2, ![128, 128]⟩ .f32)
    (b2 : FVec Ideal ⟨1, ![128]⟩ .f32) (g : FVec Ideal ⟨1, ![128]⟩ .f32)
    (hxx : (⟨2, ![a, 128]⟩ : Shape).ShapeCasts ⟨2, ![a, 128]⟩)
    (hred : (⟨2, ![a, 128]⟩ : Shape).Reduces [1] (⟨1, ![a]⟩ : Shape)) (hφ : FKind.Formats .f32)
    (hacc : (0x00000000#32 : BitVec 32) = FKind.add.neutral .f32 hφ)
    (hcol : (⟨1, ![a]⟩ : Shape).ShapeCasts ⟨2, ![a, 1]⟩) (hwb : (⟨2, ![a, 1]⟩ : Shape).Broadcasts ⟨2, ![a, 128]⟩)
    (hc : (⟨1, ![128]⟩ : Shape).ShapeCasts ⟨2, ![1, 128]⟩) (hb : (⟨2, ![1, 128]⟩ : Shape).Broadcasts ⟨2, ![a, 128]⟩)
    (r : FVec Ideal ⟨2, ![a, 128]⟩ .f32)
    (hr : r = addf (addf (matmul D1 none
            (maximumf (addf (matmul D1 none (shapeCast ⟨2, ![a, 128]⟩ cb hxx) W1 (constant (F := Ideal) ⟨2, ![a, 128]⟩ .f32 0x00000000#32))
                (broadcastTo ⟨2, ![a, 128]⟩ (shapeCast ⟨2, ![1, 128]⟩ b1 hc) hb))
              (broadcast ⟨2, ![a, 128]⟩ (Scalar.ofBits (F := Ideal) .f32 0x00000000#32)))
            W2 (constant (F := Ideal) ⟨2, ![a, 128]⟩ .f32 0x00000000#32))
          (broadcastTo ⟨2, ![a, 128]⟩ (shapeCast ⟨2, ![1, 128]⟩ b2 hc) hb)) x) :
    mulf (mulf r (broadcastTo ⟨2, ![a, 128]⟩
        (rsqrt (addf (divf (shapeCast ⟨2, ![a, 1]⟩ (multiReduction .add [1] (⟨1, ![a]⟩ : Shape) (mulf r r) 0x00000000#32 hred hφ hacc) hcol)
            (broadcast ⟨2, ![a, 1]⟩ (Scalar.ofBits (F := Ideal) .f32 0x43000000#32)))
          (broadcast ⟨2, ![a, 1]⟩ (Scalar.ofBits (F := Ideal) .f32 0x34000000#32)))) hwb))
      (broadcastTo ⟨2, ![a, 128]⟩ (shapeCast ⟨2, ![1, 128]⟩ g hc) hb)
    = nodeOut cb x W1 b1 W2 b2 g := by
  have hrr : ∀ (p : Fin a) (q : Fin 128), r (ix2 p q) = resid cb x W1 b1 W2 b2 p q := fun p q => by
    rw [hr, addf_apply, shapeCast_self, mlp_vec D1 h1 D1 h1 cb W1 b1 W2 b2 hc hb hc hb p q]
    rfl
  funext j
  obtain ⟨p, q, rfl⟩ : ∃ (p : Fin a) (q : Fin 128), j = ix2 p q := ⟨j 0, j 1, eq_ix2 j⟩
  rw [nodeOut_apply, mulf_apply, mulf_apply, biasRow_apply, broadcastTo_a1_ab_apply]
  show r (ix2 p q) * Ideal.rsqrt (Ideal.div (shapeCast ⟨2, ![a, 1]⟩ (multiReduction .add [1] (⟨1, ![a]⟩ : Shape) (mulf r r) 0x00000000#32 hred hφ hacc) hcol (ix2 p (0 : Fin 1)))
      (Ideal.ofBits .f32 0x43000000#32) + Ideal.ofBits .f32 0x34000000#32) * g (ix1 q) = _
  rw [shapeCast_a_a1_apply, rowSum_apply]
  simp only [mulf_apply, hrr]

end Cert.Gine.VecUnit

end
-- ==== Proof.KerPay.lean ====
/-
  What each kernel body stores, as a function of what it loads: the edge kernel's stored block is the specification's
  message of its loaded blocks, the node kernel's the specification's node update, both at a block's height of 10000
  rows. The two matrix products contract the left operand's columns with the right operand's rows (read off the
  printed dimension numbers); the rest is the vector unit's spelling read entry by entry (VecSpelling.lean).
-/
import proofs.«145459_j88630945120295_1_alg».proof.Proof.Gen.KernelIdeal.Skeleton
import proofs.«145459_j88630945120295_1_alg».proof.Proof.VecSpelling

noncomputable section

namespace Cert.KernelIdeal.Pay

open Cert.KernelIdeal Cert.KernelIdeal.Gen Idealize.ShloMosaic Idealize.ShloMosaic.ValueIdx Cert.Gine Cert.Gine.VecUnit

/-- The [10000, 64] × [64, 128] product's dimension numbers. -/
abbrev D64 := dot_S10000x64_S64x128_S10000x128_1_0_0_1_n_n
/-- The [10000, 128] × [128, 128] product's dimension numbers. -/
abbrev D128 := dot_S10000x128_S128x128_S10000x128_1_0_0_1_n_n

theorem std64 : StdDot (a := 10000) (K := 64) (b := 128) D64 where
  hr := rfl
  hs := rfl
  hl0 := fun i q => by
    unfold DotDims.lhsIdx
    rw [dif_neg (show ¬(0 : Fin S10000x64.rank) ∈ D64.lhsBatch by decide),
      dif_pos (show (0 : Fin S10000x64.rank) ∈ D64.lhsNonContracting by decide)]
    rfl
  hl1 := fun i q => D64.lhsIdx_val_of_single rfl i q
  hr0 := fun i q => D64.rhsIdx_val_of_single rfl i q
  hr1 := fun i q => by
    unfold DotDims.rhsIdx
    rw [dif_neg (show ¬(1 : Fin S64x128.rank) ∈ D64.rhsBatch by decide),
      dif_pos (show (1 : Fin S64x128.rank) ∈ D64.rhsNonContracting by decide)]
    rfl

theorem std128 : StdDot (a := 10000) (K := 128) (b := 128) D128 where
  hr := rfl
  hs := rfl
  hl0 := fun i q => by
    unfold DotDims.lhsIdx
    rw [dif_neg (show ¬(0 : Fin S10000x128.rank) ∈ D128.lhsBatch by decide),
      dif_pos (show (0 : Fin S10000x128.rank) ∈ D128.lhsNonContracting by decide)]
    rfl
  hl1 := fun i q => D128.lhsIdx_val_of_single rfl i q
  hr0 := fun i q => D128.rhsIdx_val_of_single rfl i q
  hr1 := fun i q => by
    unfold DotDims.rhsIdx
    rw [dif_neg (show ¬(1 : Fin S128x128.rank) ∈ D128.rhsBatch by decide),
      dif_pos (show (1 : Fin S128x128.rank) ∈ D128.rhsNonContracting by decide)]
    rfl

/-- The edge kernel's stored block is the message of its loaded blocks. -/
theorem pay0_eq (v0 : FVec Ideal S10000x64 .f32) (v1 : FVec Ideal S64x128 .f32) (v3 : FVec Ideal S128 .f32)
    (v9 : FVec Ideal S128x128 .f32) (v11 : FVec Ideal S128 .f32) (v15 : FVec Ideal S10000x128 .f32) (v18 : FVec Ideal S10000x1 .f32) :
    k0_pay1 (F := Ideal) v0 v1 v3 v9 v11 v15 v18 = edgeMsg (a := 10000) v15 v0 v18 v1 v3 v9 v11 := by
  unfold k0_pay1
  exact edge_vec (a := 10000) D64 std64 D128 std128 v15 v0 v18 v1 v3 v9 v11 shapeCasts_S10000x128_S10000x128
    shapeCasts_S10000x1_S10000x1 broadcasts_S10000x1_S10000x128 shapeCasts_S128_S1x128 broadcasts_S1x128_S10000x128

/-- The node kernel's stored block is the node update of its loaded blocks. -/
theorem pay1_eq (v0 : FVec Ideal S10000x128 .f32) (v2 : FVec Ideal S128x128 .f32) (v4 : FVec Ideal S128 .f32)
    (v10 : FVec Ideal S128x128 .f32) (v12 : FVec Ideal S128 .f32) (v16 : FVec Ideal S10000x128 .f32) (v28 : FVec Ideal S128 .f32) :
    k1_pay1 (F := Ideal) v0 v2 v4 v10 v12 v16 v28 = nodeOut (a := 10000) v0 v16 v2 v4 v10 v12 v28 := by
  unfold k1_pay1
  exact node_vec (a := 10000) D128 std128 v0 v16 v2 v4 v10 v12 v28 shapeCasts_S10000x128_S10000x128
    reduces_S10000x128_S10000 (.inl rfl) rfl shapeCasts_S10000_S10000x1 broadcasts_S10000x1_S10000x128
    shapeCasts_S128_S1x128 broadcasts_S1x128_S10000x128 _ rfl

end Cert.KernelIdeal.Pay

end
-- ==== Proof.EdgeArr.lean ====
/-
  From blocks to the array, for the edge region: the messages array. The region's grid has 60 points; point `t` reads rows
  `10000 t … 10000 t + 9999` of each row-indexed operand and the whole of each weight array, and writes the same rows of
  the output. What it writes is the specification's function of the operands' blocks (KerPay.lean), which reads row `p`
  of the blocks only, and row `p` of a block is row `10000 t + p` of its array: so point `t` writes block `t` of
  ONE function of the whole arrays, the blocks tile the output (row `r` is in block `r / 10000`), and the output array
  ends holding that function. `V` is the contents of the buffers when the region is entered.
-/
import proofs.«145459_j88630945120295_1_alg».proof.Proof.KernelIdealFrameP
import proofs.«145459_j88630945120295_1_alg».proof.Proof.KerPay
import Idealize.ShloMosaic.Lib.Pipeline.Value

set_option maxRecDepth 16384

noncomputable section

namespace Cert.KernelIdeal.EdgeArr

open Cert.KernelIdeal Cert.KernelIdeal.Gen Cert.KernelIdeal.GenP Cert.KernelIdeal.Pay
open Idealize.ShloMosaic Idealize.ShloMosaic.TcCoe Idealize.SL.Sem Idealize.ShloMosaic.ValueIdx Cert.Gine
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row-indexed operand's block moves with the output's block and
    starts at column zero; a weight array's block index is zero; the output's block row stays below 60. -/
theorem idx_facts : ∀ t : Fin cfg0.N,
    win0_0.index t (0 : Fin 2) = win0_7.index t (0 : Fin 2)
    ∧ win0_0.index t (1 : Fin 2) = 0
    ∧ win0_1.index t (0 : Fin 2) = win0_7.index t (0 : Fin 2)
    ∧ win0_1.index t (1 : Fin 2) = 0
    ∧ win0_2.index t (0 : Fin 2) = win0_7.index t (0 : Fin 2)
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) ≤ 59
    ∧ win0_7.index t (1 : Fin 2) = 0 :=
  (by decide +kernel : ∀ t : Fin grid0.N, _)

/-- Every block row of the output is some point's. -/
theorem idx_onto : ∀ q0 : Fin 60, ∃ t : Fin cfg0.N, win0_7.index t = ![q0.val, 0] :=
  (by decide +kernel : ∀ q0 : Fin 60, ∃ t : Fin grid0.N, win0_7.index t = ![q0.val, 0])

/-- What the output array ends holding: the specification's function of the arrays the region finds. -/
abbrev msgs (c : Dev nD) : FVec Ideal ⟨2, ![600000, 128]⟩ .f32 :=
  edgeMsg (a := 600000) (V c main_v38) (V c main_arg2) (V c main_v39) (V c main_arg7) (V c main_arg8) (V c main_arg9) (V c main_arg10)

/-- What point `t` writes back is block `t` of that function. -/
theorem flushed_eq (c : Dev nD) (t : Fin cfg0.N) :
    (dat0 V c).flushed 7 t = ((cfg0.win 7).blk t).view.read (Elt Ideal) (msgs V c) := by
  show (cfg0.win 7).cut (grid0.coords t) ((dat0 V c).after 7 t) = _
  rw [after0_7]
  unfold out0_7
  rw [View.canon_unit_zero hz2]
  simp only [View.ld_unit_zero (S := S10000x64) hz2, View.ld_unit_zero (S := S64x128) hz2, View.ld_unit_zero (S := S128) hz1, View.ld_unit_zero (S := S128x128) hz2, View.ld_unit_zero (S := S10000x128) hz2, View.ld_unit_zero (S := S10000x1) hz2]
  rw [pay0_eq]
  obtain ⟨e00, e01, e10, e11, e20, e21, e30, e31, e40, e50, e51, e60, e7b, e71⟩ := idx_facts t
  funext j
  obtain ⟨p, q, rfl⟩ : ∃ (p : Fin 10000) (q : Fin 128), j = ix2 p q := ⟨j 0, j 1, eq_ix2 j⟩
  have hP : win0_7.index t (0 : Fin 2) * 10000 + p.val < 600000 := by have := p.isLt; omega
  show edgeMsg (a := 10000) (iblk0 V c 0 t) (iblk0 V c 1 t) (iblk0 V c 2 t) (iblk0 V c 3 t) (iblk0 V c 4 t) (iblk0 V c 5 t) (iblk0 V c 6 t) (ix2 p q) = msgs V c (((cfg0.win 7).blk t).view.emb (ix2 p q))
  have hemb : ((cfg0.win 7).blk t).view.emb (ix2 p q) = ix2 (⟨win0_7.index t (0 : Fin 2) * 10000 + p.val, hP⟩ : Fin 600000) q := by
    funext a; apply Fin.ext
    match a with
    | ⟨0, _⟩ => show win0_7.index t (0 : Fin 2) * 10000 + 1 * p.val = win0_7.index t (0 : Fin 2) * 10000 + p.val; omega
    | ⟨1, _⟩ => show win0_7.index t (1 : Fin 2) * 128 + 1 * q.val = q.val; omega
  rw [hemb]
  have w3 : iblk0 V c 3 t = V c main_arg7 := by
    funext y
    show V c main_arg7 (((cfg0.win 3).blk t).view.emb y) = V c main_arg7 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 128 + 1 * (y 1).val = (y 1).val; omega
  have w4 : iblk0 V c 4 t = V c main_arg8 := by
    funext y
    show V c main_arg8 (((cfg0.win 4).blk t).view.emb y) = V c main_arg8 y
    refine congrArg _ (funext fun a => Fin.ext ?_)
    match a with
    | ⟨0, _⟩ => show win0_4.index t (0 : Fin 1) * 128 + 1 * (y 0).val = (y 0).val; omega
  have w5 : iblk0 V c 5 t = V c main_arg9 := by
    funext y
    show V c main_arg9 (((cfg0.win 5).blk t).view.emb y) = V c main_arg9 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have w6 : iblk0 V c 6 t = V c main_arg10 := by
    funext y
    show V c main_arg10 (((cfg0.win 6).blk t).view.emb y) = V c main_arg10 y
    refine congrArg _ (funext fun a => Fin.ext ?_)
    match a with
    | ⟨0, _⟩ => show win0_6.index t (0 : Fin 1) * 128 + 1 * (y 0).val = (y 0).val; omega
  rw [w3, w4, w5, w6]
  refine edgeMsg_congr (a := 10000) (a' := 600000) (iblk0 V c 0 t) (iblk0 V c 1 t) (iblk0 V c 2 t) (V c main_v38) (V c main_arg2) (V c main_v39)
    (V c main_arg7) (V c main_arg8) (V c main_arg9) (V c main_arg10) p ⟨win0_7.index t (0 : Fin 2) * 10000 + p.val, hP⟩ q ?_ ?_ ?_
  ·
    show V c main_v38 (((cfg0.win 0).blk t).view.emb (ix2 p q)) = V c main_v38 (ix2 (⟨win0_7.index t (0 : Fin 2) * 10000 + p.val, hP⟩ : Fin 600000) q)
    refine congrArg _ (funext fun a => Fin.ext ?_)
    match a with
    | ⟨0, _⟩ => show win0_0.index t (0 : Fin 2) * 10000 + 1 * p.val = win0_7.index t (0 : Fin 2) * 10000 + p.val; omega
    | ⟨1, _⟩ => show win0_0.index t (1 : Fin 2) * 128 + 1 * q.val = q.val; omega
  · intro j'
    show V c main_arg2 (((cfg0.win 1).blk t).view.emb (ix2 p j')) = V c main_arg2 (ix2 (⟨win0_7.index t (0 : Fin 2) * 10000 + p.val, hP⟩ : Fin 600000) j')
    refine congrArg _ (funext fun a => Fin.ext ?_)
    match a with
    | ⟨0, _⟩ => show win0_1.index t (0 : Fin 2) * 10000 + 1 * p.val = win0_7.index t (0 : Fin 2) * 10000 + p.val; omega
    | ⟨1, _⟩ => show win0_1.index t (1 : Fin 2) * 64 + 1 * j'.val = j'.val; omega
  ·
    show V c main_v39 (((cfg0.win 2).blk t).view.emb (ix2 p (0 : Fin 1))) = V c main_v39 (ix2 (⟨win0_7.index t (0 : Fin 2) * 10000 + p.val, hP⟩ : Fin 600000) (0 : Fin 1))
    refine congrArg _ (funext fun a => Fin.ext ?_)
    match a with
    | ⟨0, _⟩ => show win0_2.index t (0 : Fin 2) * 10000 + 1 * p.val = win0_7.index t (0 : Fin 2) * 10000 + p.val; omega
    | ⟨1, _⟩ => show win0_2.index t (1 : Fin 2) * 1 + 1 * (0 : Fin 1).val = (0 : Fin 1).val; omega

/-- An index of the output array is in point `t`'s block iff each coordinate is in the block's range on its axis. -/
theorem mem_blk (t : Fin cfg0.N) (i : S600000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v40).slice (win0_7.rect t)).set ↔ _
  rw [View.set_slice_whole, Rect.mem_set_unit]
  exact Iff.rfl

/-- The blocks tile the output: row `r` is in the block of point `r / 10000`. -/
theorem cover (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  obtain ⟨t, ht⟩ := idx_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 128 ≤ (i 1).val ∧ (i 1).val < win0_7.index t (1 : Fin 2) * 128 + 128; omega

/-- The output array after the region. -/
theorem final (c : Dev nD) : (dat0 V c).arrAt 7 cfg0.N = msgs V c :=
  (dat0 V c).arrAt_eq_of_cover 7 (msgs V c) (fun t _ => flushed_eq V c t) (cover)

end Cert.KernelIdeal.EdgeArr

end
-- ==== Proof.NodeArr.lean ====
/-
  From blocks to the array, for the node region: the result array. The region's grid has 10 points; point `t` reads rows
  `10000 t … 10000 t + 9999` of each row-indexed operand and the whole of each weight array, and writes the same rows of
  the output. What it writes is the specification's function of the operands' blocks (KerPay.lean), which reads row `p`
  of the blocks only, and row `p` of a block is row `10000 t + p` of its array: so point `t` writes block `t` of
  ONE function of the whole arrays, the blocks tile the output (row `r` is in block `r / 10000`), and the output array
  ends holding that function. `V` is the contents of the buffers when the region is entered.
-/
import proofs.«145459_j88630945120295_1_alg».proof.Proof.KernelIdealFrameP
import proofs.«145459_j88630945120295_1_alg».proof.Proof.KerPay
import Idealize.ShloMosaic.Lib.Pipeline.Value

set_option maxRecDepth 16384

noncomputable section

namespace Cert.KernelIdeal.NodeArr

open Cert.KernelIdeal Cert.KernelIdeal.Gen Cert.KernelIdeal.GenP Cert.KernelIdeal.Pay
open Idealize.ShloMosaic Idealize.ShloMosaic.TcCoe Idealize.SL.Sem Idealize.ShloMosaic.ValueIdx Cert.Gine
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row-indexed operand's block moves with the output's block and
    starts at column zero; a weight array's block index is zero; the output's block row stays below 10. -/
theorem idx_facts : ∀ t : Fin cfg1.N,
    win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 2) ≤ 9
    ∧ win1_7.index t (1 : Fin 2) = 0 :=
  (by decide +kernel : ∀ t : Fin grid1.N, _)

/-- Every block row of the output is some point's. -/
theorem idx_onto : ∀ q0 : Fin 10, ∃ t : Fin cfg1.N, win1_7.index t = ![q0.val, 0] :=
  (by decide +kernel : ∀ q0 : Fin 10, ∃ t : Fin grid1.N, win1_7.index t = ![q0.val, 0])

/-- What the output array ends holding: the specification's function of the arrays the region finds. -/
abbrev upd (c : Dev nD) : FVec Ideal ⟨2, ![100000, 128]⟩ .f32 :=
  nodeOut (a := 100000) (V c main_v47) (V c main_arg0) (V c main_arg3) (V c main_arg4) (V c main_arg5) (V c main_arg6) (V c main_arg12)

/-- What point `t` writes back is block `t` of that function. -/
theorem flushed_eq (c : Dev nD) (t : Fin cfg1.N) :
    (dat1 V c).flushed 7 t = ((cfg1.win 7).blk t).view.read (Elt Ideal) (upd V c) := by
  show (cfg1.win 7).cut (grid1.coords t) ((dat1 V c).after 7 t) = _
  rw [after1_7]
  unfold out1_7
  rw [View.canon_unit_zero hz2]
  simp only [View.ld_unit_zero (S := S10000x128) hz2, View.ld_unit_zero (S := S128x128) hz2, View.ld_unit_zero (S := S128) hz1]
  rw [pay1_eq]
  obtain ⟨e00, e01, e10, e11, e20, e21, e30, e40, e41, e50, e60, e7b, e71⟩ := idx_facts t
  funext j
  obtain ⟨p, q, rfl⟩ : ∃ (p : Fin 10000) (q : Fin 128), j = ix2 p q := ⟨j 0, j 1, eq_ix2 j⟩
  have hP : win1_7.index t (0 : Fin 2) * 10000 + p.val < 100000 := by have := p.isLt; omega
  show nodeOut (a := 10000) (iblk1 V c 0 t) (iblk1 V c 1 t) (iblk1 V c 2 t) (iblk1 V c 3 t) (iblk1 V c 4 t) (iblk1 V c 5 t) (iblk1 V c 6 t) (ix2 p q) = upd V c (((cfg1.win 7).blk t).view.emb (ix2 p q))
  have hemb : ((cfg1.win 7).blk t).view.emb (ix2 p q) = ix2 (⟨win1_7.index t (0 : Fin 2) * 10000 + p.val, hP⟩ : Fin 100000) q := by
    funext a; apply Fin.ext
    match a with
    | ⟨0, _⟩ => show win1_7.index t (0 : Fin 2) * 10000 + 1 * p.val = win1_7.index t (0 : Fin 2) * 10000 + p.val; omega
    | ⟨1, _⟩ => show win1_7.index t (1 : Fin 2) * 128 + 1 * q.val = q.val; omega
  rw [hemb]
  have w2 : iblk1 V c 2 t = V c main_arg3 := by
    funext y
    show V c main_arg3 (((cfg1.win 2).blk t).view.emb y) = V c main_arg3 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have w3 : iblk1 V c 3 t = V c main_arg4 := by
    funext y
    show V c main_arg4 (((cfg1.win 3).blk t).view.emb y) = V c main_arg4 y
    refine congrArg _ (funext fun a => Fin.ext ?_)
    match a with
    | ⟨0, _⟩ => show win1_3.index t (0 : Fin 1) * 128 + 1 * (y 0).val = (y 0).val; omega
  have w4 : iblk1 V c 4 t = V c main_arg5 := by
    funext y
    show V c main_arg5 (((cfg1.win 4).blk t).view.emb y) = V c main_arg5 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have w5 : iblk1 V c 5 t = V c main_arg6 := by
    funext y
    show V c main_arg6 (((cfg1.win 5).blk t).view.emb y) = V c main_arg6 y
    refine congrArg _ (funext fun a => Fin.ext ?_)
    match a with
    | ⟨0, _⟩ => show win1_5.index t (0 : Fin 1) * 128 + 1 * (y 0).val = (y 0).val; omega
  have w6 : iblk1 V c 6 t = V c main_arg12 := by
    funext y
    show V c main_arg12 (((cfg1.win 6).blk t).view.emb y) = V c main_arg12 y
    refine congrArg _ (funext fun a => Fin.ext ?_)
    match a with
    | ⟨0, _⟩ => show win1_6.index t (0 : Fin 1) * 128 + 1 * (y 0).val = (y 0).val; omega
  rw [w2, w3, w4, w5, w6]
  refine nodeOut_congr (a := 10000) (a' := 100000) (iblk1 V c 0 t) (iblk1 V c 1 t) (V c main_v47) (V c main_arg0)
    (V c main_arg3) (V c main_arg4) (V c main_arg5) (V c main_arg6) (V c main_arg12) p ⟨win1_7.index t (0 : Fin 2) * 10000 + p.val, hP⟩ q ?_ ?_
  · intro j'
    show V c main_v47 (((cfg1.win 0).blk t).view.emb (ix2 p j')) = V c main_v47 (ix2 (⟨win1_7.index t (0 : Fin 2) * 10000 + p.val, hP⟩ : Fin 100000) j')
    refine congrArg _ (funext fun a => Fin.ext ?_)
    match a with
    | ⟨0, _⟩ => show win1_0.index t (0 : Fin 2) * 10000 + 1 * p.val = win1_7.index t (0 : Fin 2) * 10000 + p.val; omega
    | ⟨1, _⟩ => show win1_0.index t (1 : Fin 2) * 128 + 1 * j'.val = j'.val; omega
  · intro j'
    show V c main_arg0 (((cfg1.win 1).blk t).view.emb (ix2 p j')) = V c main_arg0 (ix2 (⟨win1_7.index t (0 : Fin 2) * 10000 + p.val, hP⟩ : Fin 100000) j')
    refine congrArg _ (funext fun a => Fin.ext ?_)
    match a with
    | ⟨0, _⟩ => show win1_1.index t (0 : Fin 2) * 10000 + 1 * p.val = win1_7.index t (0 : Fin 2) * 10000 + p.val; omega
    | ⟨1, _⟩ => show win1_1.index t (1 : Fin 2) * 128 + 1 * j'.val = j'.val; omega

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v48).slice (win1_7.rect t)).set ↔ _
  rw [View.set_slice_whole, Rect.mem_set_unit]
  exact Iff.rfl

/-- The blocks tile the output: row `r` is in the block of point `r / 10000`. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := idx_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 128 ≤ (i 1).val ∧ (i 1).val < win1_7.index t (1 : Fin 2) * 128 + 128; omega

/-- The output array after the region. -/
theorem final (c : Dev nD) : (dat1 V c).arrAt 7 cfg1.N = upd V c :=
  (dat1 V c).arrAt_eq_of_cover 7 (upd V c) (fun t _ => flushed_eq V c t) (cover)

end Cert.KernelIdeal.NodeArr

end
-- ==== Proof.RefEdge.lean ====
/-
  The reference's edge stages read entry by entry. Its first product (edge features times the first weight matrix),
  the bias row, the maximum with zero, the second product and its bias row are, at entry `(P, q)`, the specification's
  perceptron of the edge features; the messages stage is the gathered source rows plus that, times the edge's
  weight, which the reference lays out as a column and repeats along the rows: the specification's message, with the
  reference's own weight column as the column operand.
-/
import proofs.«145459_j88630945120295_1_alg».proof.Proof.Gen.ReferenceIdeal.Read
import proofs.«145459_j88630945120295_1_alg».proof.Proof.Spec

noncomputable section

namespace Cert.ReferenceIdeal.RefValue

open Cert.ReferenceIdeal Cert.ReferenceIdeal.Read Idealize.ShloMosaic Idealize.ShloMosaic.ValueIdx Cert.Gine

/-! ## Where each stage reads its operands, in coordinates -/

theorem lidx32 (P : Fin 600000) (k : Fin 128) (j : Fin 64) : lidx_main_v32 (ix2 P k) j = ix2 P j :=
  funext fun a => Fin.ext (by match a with | ⟨0, _⟩ => rfl | ⟨1, _⟩ => rfl)
theorem ridx32 (P : Fin 600000) (k : Fin 128) (j : Fin 64) : ridx_main_v32 (ix2 P k) j = ix2 j k :=
  funext fun a => Fin.ext (by match a with | ⟨0, _⟩ => rfl | ⟨1, _⟩ => rfl)
theorem bias34 (P : Fin 600000) (k : Fin 128) : idx_main_v33 (idx_main_v34 (ix2 P k)) = ix1 k :=
  funext fun a => Fin.ext (by match a with | ⟨0, _⟩ => rfl)
theorem lidx37 (P : Fin 600000) (q k : Fin 128) : lidx_main_v37 (ix2 P q) k = ix2 P k :=
  funext fun a => Fin.ext (by match a with | ⟨0, _⟩ => rfl | ⟨1, _⟩ => rfl)
theorem ridx37 (P : Fin 600000) (q k : Fin 128) : ridx_main_v37 (ix2 P q) k = ix2 k q :=
  funext fun a => Fin.ext (by match a with | ⟨0, _⟩ => rfl | ⟨1, _⟩ => rfl)
theorem bias39 (P : Fin 600000) (q : Fin 128) : idx_main_v38 (idx_main_v39 (ix2 P q)) = ix1 q :=
  funext fun a => Fin.ext (by match a with | ⟨0, _⟩ => rfl)
theorem col50 (P : Fin 600000) (q : Fin 128) : idx_main_v50 (ix2 P q) = ix2 P (0 : Fin 1) :=
  funext fun a => Fin.ext (by match a with | ⟨0, _⟩ => rfl | ⟨1, _⟩ => rfl)

/-! ## The stages -/

/-- The first layer at `(P, k)`. -/
theorem hidden_e (x2 : (⟨S600000x64, .f32⟩ : BufTy).Contents (Elt Ideal)) (x7 : (⟨S64x128, .f32⟩ : BufTy).Contents (Elt Ideal)) (x8 : (⟨S128, .f32⟩ : BufTy).Contents (Elt Ideal))
    (P : Fin 600000) (k : Fin 128) :
    val_main_v36 (F := Ideal) x2 x7 x8 (ix2 P k)
      = max ((∑ j : Fin 64, x2 (ix2 P j) * x7 (ix2 j k)) + x8 (ix1 k)) (Ideal.ofBits .f32 0x00000000#32) := by
  rw [val_main_v36_apply, val_main_v35_apply, val_main_v32_apply, val_main_v34_apply, val_main_v33_apply,
    val_main_call0_v0_apply, val_main_call0_cst_apply]
  simp only [lidx32, ridx32, bias34]
  rfl

/-- Both layers at `(P, q)`: the specification's perceptron of the edge features. -/
theorem mlp_e (x2 : (⟨S600000x64, .f32⟩ : BufTy).Contents (Elt Ideal)) (x7 : (⟨S64x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) (P : Fin 600000) (q : Fin 128) :
    val_main_v40 (F := Ideal) x2 x7 x8 x9 x10 (ix2 P q) = mlp (a := 600000) x2 x7 x8 x9 x10 P q := by
  rw [val_main_v40_apply, val_main_v37_apply, val_main_v39_apply, val_main_v38_apply]
  unfold mlp
  simp only [lidx37, ridx37, bias39, hidden_e]
  rfl

/-- The messages stage is the specification's message of the gathered source rows, the edge features and the
    reference's weight column. -/
theorem msgs_eq (x0 : (⟨S100000x128, .f32⟩ : BufTy).Contents (Elt Ideal)) (x1 : (⟨S2x600000, .i32⟩ : BufTy).Contents (Elt Ideal)) (x2 : (⟨S600000x64, .f32⟩ : BufTy).Contents (Elt Ideal))
    (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v51 (F := Ideal) x0 x1 x2 x7 x8 x9 x10
      = edgeMsg (a := 600000) (val_main_v47 (F := Ideal) x0 x1) x2 (val_main_v49 (F := Ideal) x1) x7 x8 x9 x10 := by
  funext i
  obtain ⟨P, q, rfl⟩ : ∃ (P : Fin 600000) (q : Fin 128), i = ix2 P q := ⟨i 0, i 1, eq_ix2 i⟩
  rw [edgeMsg_apply, val_main_v51_apply, val_main_v48_apply, val_main_v50_apply, mlp_e, col50]
  rfl

end Cert.ReferenceIdeal.RefValue

end
-- ==== Proof.RefNode.lean ====
/-
  The reference's node stages read entry by entry, as functions of its combined array (the node's own row scaled,
  plus the sum of the messages arriving at the node; the stage named `val_main_v58`): the two products with their
  bias rows and the maximum with zero are the specification's perceptron of the combined row; adding the node's own row
  gives the residual; the sum of the residual row's squares (a host sum from zero) divided by 128, plus the small
  constant, under the reciprocal root, times the residual and the gain row is the specification's node update.
-/
import proofs.«145459_j88630945120295_1_alg».proof.Proof.Gen.ReferenceIdeal.Read
import proofs.«145459_j88630945120295_1_alg».proof.Proof.Spec

noncomputable section

namespace Cert.ReferenceIdeal.RefValue

open Cert.ReferenceIdeal Cert.ReferenceIdeal.Read Idealize.ShloMosaic Idealize.ShloMosaic.ValueIdx Cert.Gine

/-! ## Where each stage reads its operands, in coordinates -/

theorem lidx59 (P : Fin 100000) (k j : Fin 128) : lidx_main_v59 (ix2 P k) j = ix2 P j :=
  funext fun a => Fin.ext (by match a with | ⟨0, _⟩ => rfl | ⟨1, _⟩ => rfl)
theorem ridx59 (P : Fin 100000) (k j : Fin 128) : ridx_main_v59 (ix2 P k) j = ix2 j k :=
  funext fun a => Fin.ext (by match a with | ⟨0, _⟩ => rfl | ⟨1, _⟩ => rfl)
theorem bias61 (P : Fin 100000) (k : Fin 128) : idx_main_v60 (idx_main_v61 (ix2 P k)) = ix1 k :=
  funext fun a => Fin.ext (by match a with | ⟨0, _⟩ => rfl)
theorem lidx64 (P : Fin 100000) (q k : Fin 128) : lidx_main_v64 (ix2 P q) k = ix2 P k :=
  funext fun a => Fin.ext (by match a with | ⟨0, _⟩ => rfl | ⟨1, _⟩ => rfl)
theorem ridx64 (P : Fin 100000) (q k : Fin 128) : ridx_main_v64 (ix2 P q) k = ix2 k q :=
  funext fun a => Fin.ext (by match a with | ⟨0, _⟩ => rfl | ⟨1, _⟩ => rfl)
theorem bias66 (P : Fin 100000) (q : Fin 128) : idx_main_v65 (idx_main_v66 (ix2 P q)) = ix1 q :=
  funext fun a => Fin.ext (by match a with | ⟨0, _⟩ => rfl)
theorem row70 (P : Fin 100000) (q k : Fin 128) : idx_main_v70 (idx_main_v71 (idx_main_v77 (ix2 P q))) k = ix2 P k :=
  funext fun a => Fin.ext (by match a with | ⟨0, _⟩ => rfl | ⟨1, _⟩ => rfl)
theorem gain80 (P : Fin 100000) (q : Fin 128) : idx_main_v79 (idx_main_v80 (ix2 P q)) = ix1 q :=
  funext fun a => Fin.ext (by match a with | ⟨0, _⟩ => rfl)

/-! ## The stages -/

variable (x0 : (⟨S100000x128, .f32⟩ : BufTy).Contents (Elt Ideal)) (x1 : (⟨S2x600000, .i32⟩ : BufTy).Contents (Elt Ideal)) (x2 : (⟨S600000x64, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S_, .f32⟩ : BufTy).Contents (Elt Ideal)) (x12 : (⟨S128, .f32⟩ : BufTy).Contents (Elt Ideal))

/-- The node perceptron's first layer at `(P, k)`, over the combined array. -/
theorem hidden_n (P : Fin 100000) (k : Fin 128) :
    val_main_v63 (F := Ideal) x0 x1 x2 x3 x4 x7 x8 x9 x10 x11 (ix2 P k)
      = max ((∑ j : Fin 128, (val_main_v58 (F := Ideal) x0 x1 x2 x7 x8 x9 x10 x11) (ix2 P j) * x3 (ix2 j k)) + x4 (ix1 k)) (Ideal.ofBits .f32 0x00000000#32) := by
  rw [val_main_v63_apply, val_main_v62_apply, val_main_v59_apply, val_main_v61_apply, val_main_v60_apply,
    val_main_call1_v0_apply, val_main_call1_cst_apply]
  simp only [lidx59, ridx59, bias61]
  rfl

/-- Both layers at `(P, q)`: the specification's perceptron of the combined array. -/
theorem mlp_n (P : Fin 100000) (q : Fin 128) :
    val_main_v67 (F := Ideal) x0 x1 x2 x3 x4 x5 x6 x7 x8 x9 x10 x11 (ix2 P q) = mlp (a := 100000) (val_main_v58 (F := Ideal) x0 x1 x2 x7 x8 x9 x10 x11) x3 x4 x5 x6 P q := by
  rw [val_main_v67_apply, val_main_v64_apply, val_main_v66_apply, val_main_v65_apply]
  unfold mlp
  simp only [lidx64, ridx64, bias66, hidden_n]
  rfl

/-- The residual at `(P, q)`. -/
theorem resid_n (P : Fin 100000) (q : Fin 128) :
    val_main_v68 (F := Ideal) x0 x1 x2 x3 x4 x5 x6 x7 x8 x9 x10 x11 (ix2 P q) = resid (a := 100000) (val_main_v58 (F := Ideal) x0 x1 x2 x7 x8 x9 x10 x11) x0 x3 x4 x5 x6 P q := by
  rw [val_main_v68_apply, mlp_n]
  rfl

/-- The reference's result is the specification's node update of its combined array. -/
theorem out_eq :
    val_main_v81 (F := Ideal) x0 x1 x2 x3 x4 x5 x6 x7 x8 x9 x10 x11 x12 = nodeOut (a := 100000) (val_main_v58 (F := Ideal) x0 x1 x2 x7 x8 x9 x10 x11) x0 x3 x4 x5 x6 x12 := by
  funext i
  obtain ⟨P, q, rfl⟩ : ∃ (P : Fin 100000) (q : Fin 128), i = ix2 P q := ⟨i 0, i 1, eq_ix2 i⟩
  rw [nodeOut_apply, val_main_v81_apply, val_main_v78_apply, val_main_v80_apply, val_main_v79_apply, val_main_v77_apply,
    val_main_v76_apply, val_main_v75_apply, val_main_v73_apply, val_main_v71_apply, val_main_v70_apply, val_main_v72_apply,
    val_main_v74_apply, val_main_cst_12_apply, val_main_cst_13_apply, val_main_cst_14_apply]
  simp only [row70, gain80, val_main_v69_apply, resid_n]
  show _ * Ideal.rsqrt (Ideal.div (Ideal.ofBits .f32 0x00000000#32 + _) _ + _) * _ = _
  rw [Ideal.ofBits_zero_f32, zero_add]
  rfl

end Cert.ReferenceIdeal.RefValue

end
-- ==== Proof.KerValue.lean ====
/-
  The kernel program's result as a function of its arguments, through the boundaries of its run. The buffers' contents
  at each boundary are a fold from the launch memory. Read back through it: the edge region finds the gathered source
  rows, the edge features, the weight column and the edge perceptron's weights, and leaves the messages array
  (EdgeArr.lean), which equals the reference's messages stage (RefEdge.lean) — the gathered rows are the same host
  gather of the same arguments, and the weight column, here a reshape of the weight vector and there its broadcast
  along a unit axis, reads the same vector at the row; the host operations between the regions (the scatter-add of the
  messages into their target rows, plus the scaled node array) are the reference's, applied to equal operands, so the
  node region finds the reference's combined array, and leaves (NodeArr.lean) what the reference's result stage is of
  that array (RefNode.lean). No host operation is opened: the gathers, the scatters and the degree weights are the
  same terms on both sides.
-/
import proofs.«145459_j88630945120295_1_alg».proof.Proof.KernelIdealFrameP
import proofs.«145459_j88630945120295_1_alg».proof.Proof.EdgeArr
import proofs.«145459_j88630945120295_1_alg».proof.Proof.NodeArr
import proofs.«145459_j88630945120295_1_alg».proof.Proof.RefEdge
import proofs.«145459_j88630945120295_1_alg».proof.Proof.RefNode
import Idealize.ShloMosaic.Lib.StableHlo.Run

set_option maxRecDepth 16384

noncomputable section

namespace Cert.KernelIdeal.KerValue

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Cert.Gine Cert.Attn.Layout

variable (m : (ℓ : Loc nD τ sig) → Buf (Elt Ideal) ℓ) (ρ : Dev nD → PrngReg) (c : Dev nD)

/-! ## An argument array read at a boundary is the launch memory's: no host operation and no region writes one -/

theorem W1_arg0 : W1 m ρ c (Proc.devRef .tc main_arg0) = (m ((c : Thread nD τ).loc main_arg0)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg0) = W0 m ρ c (Proc.devRef .tc main_arg0))
theorem W1_arg2 : W1 m ρ c (Proc.devRef .tc main_arg2) = (m ((c : Thread nD τ).loc main_arg2)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg2) = W0 m ρ c (Proc.devRef .tc main_arg2))
theorem W1_arg7 : W1 m ρ c (Proc.devRef .tc main_arg7) = (m ((c : Thread nD τ).loc main_arg7)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg7) = W0 m ρ c (Proc.devRef .tc main_arg7))
theorem W1_arg8 : W1 m ρ c (Proc.devRef .tc main_arg8) = (m ((c : Thread nD τ).loc main_arg8)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg8) = W0 m ρ c (Proc.devRef .tc main_arg8))
theorem W1_arg9 : W1 m ρ c (Proc.devRef .tc main_arg9) = (m ((c : Thread nD τ).loc main_arg9)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg9) = W0 m ρ c (Proc.devRef .tc main_arg9))
theorem W1_arg10 : W1 m ρ c (Proc.devRef .tc main_arg10) = (m ((c : Thread nD τ).loc main_arg10)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg10) = W0 m ρ c (Proc.devRef .tc main_arg10))
theorem W1_arg11 : W1 m ρ c (Proc.devRef .tc main_arg11) = (m ((c : Thread nD τ).loc main_arg11)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg11) = W0 m ρ c (Proc.devRef .tc main_arg11))
theorem W1_arg3 : W1 m ρ c (Proc.devRef .tc main_arg3) = (m ((c : Thread nD τ).loc main_arg3)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg3) = W0 m ρ c (Proc.devRef .tc main_arg3))
theorem W1_arg4 : W1 m ρ c (Proc.devRef .tc main_arg4) = (m ((c : Thread nD τ).loc main_arg4)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg4) = W0 m ρ c (Proc.devRef .tc main_arg4))
theorem W1_arg5 : W1 m ρ c (Proc.devRef .tc main_arg5) = (m ((c : Thread nD τ).loc main_arg5)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg5) = W0 m ρ c (Proc.devRef .tc main_arg5))
theorem W1_arg6 : W1 m ρ c (Proc.devRef .tc main_arg6) = (m ((c : Thread nD τ).loc main_arg6)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg6) = W0 m ρ c (Proc.devRef .tc main_arg6))
theorem W1_arg12 : W1 m ρ c (Proc.devRef .tc main_arg12) = (m ((c : Thread nD τ).loc main_arg12)) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg12) = W0 m ρ c (Proc.devRef .tc main_arg12))
theorem W2_arg0 : W2 m ρ c (Proc.devRef .tc main_arg0) = (m ((c : Thread nD τ).loc main_arg0)) :=
  (W2_of_ne m ρ c main_arg0 (by decide)).trans (W1_arg0 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W3_arg0 : W3 m ρ c (Proc.devRef .tc main_arg0) = (m ((c : Thread nD τ).loc main_arg0)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg0) = W2 m ρ c (Proc.devRef .tc main_arg0))).trans (W2_arg0 m ρ c)
theorem W3_arg3 : W3 m ρ c (Proc.devRef .tc main_arg3) = (m ((c : Thread nD τ).loc main_arg3)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg3) = W2 m ρ c (Proc.devRef .tc main_arg3))).trans (W2_arg3 m ρ c)
theorem W3_arg4 : W3 m ρ c (Proc.devRef .tc main_arg4) = (m ((c : Thread nD τ).loc main_arg4)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg4) = W2 m ρ c (Proc.devRef .tc main_arg4))).trans (W2_arg4 m ρ c)
theorem W3_arg5 : W3 m ρ c (Proc.devRef .tc main_arg5) = (m ((c : Thread nD τ).loc main_arg5)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg5) = W2 m ρ c (Proc.devRef .tc main_arg5))).trans (W2_arg5 m ρ c)
theorem W3_arg6 : W3 m ρ c (Proc.devRef .tc main_arg6) = (m ((c : Thread nD τ).loc main_arg6)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg6) = W2 m ρ c (Proc.devRef .tc main_arg6))).trans (W2_arg6 m ρ c)
theorem W3_arg12 : W3 m ρ c (Proc.devRef .tc main_arg12) = (m ((c : Thread nD τ).loc main_arg12)) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg12) = W2 m ρ c (Proc.devRef .tc main_arg12))).trans (W2_arg12 m ρ c)

/-! ## What the first stretch of host operations leaves in the buffers the regions and the second stretch read -/

/-- The gathered source rows. -/
theorem W1_v38 : W1 m ρ c (Proc.devRef .tc main_v38) = Cert.ReferenceIdeal.Read.val_main_v47 (F := Ideal) (m ((c : Thread nD τ).loc main_arg0)) (m ((c : Thread nD τ).loc main_arg1)) := by
  show StableHlo.after hostOps0 (W0 m ρ c) (Proc.devRef .tc main_v38) = _
  after_results_simp <;> rfl

/-- The edge weights as a column: the weight vector reshaped. -/
theorem W1_v39 : W1 m ρ c (Proc.devRef .tc main_v39)
    = shapeCast S600000x1 (Cert.ReferenceIdeal.Read.val_main_v31 (F := Ideal) (m ((c : Thread nD τ).loc main_arg1))) shapeCasts_S600000_S600000x1 := by
  show StableHlo.after hostOps0 (W0 m ρ c) (Proc.devRef .tc main_v39) = _
  after_results_simp <;> rfl

/-- The target node of each edge. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)

/-! ## The messages array is the reference's messages stage -/

/-- The weight column read at a row, in both spellings, is the weight vector at the row. -/
theorem col_eq (P : Fin 600000) :
    W1 m ρ c (Proc.devRef .tc main_v39) (ix2 P (0 : Fin 1)) = Cert.ReferenceIdeal.Read.val_main_v49 (F := Ideal) (m ((c : Thread nD τ).loc main_arg1)) (ix2 P (0 : Fin 1)) := by
  rw [W1_v39, shapeCast_a_a1_apply, Cert.ReferenceIdeal.Read.val_main_v49_apply]
  exact congrArg _ (funext fun a => Fin.ext (by match a with | ⟨0, _⟩ => rfl))

theorem msgs_eq : W2 m ρ c (Proc.devRef .tc main_v40) = Cert.ReferenceIdeal.Read.val_main_v51 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := by
  refine (W2_arr m ρ c 7).trans ((EdgeArr.final (V1 m ρ) c).trans ?_)
  rw [Cert.ReferenceIdeal.RefValue.msgs_eq]
  show edgeMsg (a := 600000) (W1 m ρ c (Proc.devRef .tc main_v38)) (W1 m ρ c (Proc.devRef .tc main_arg2)) (W1 m ρ c (Proc.devRef .tc main_v39))
      (W1 m ρ c (Proc.devRef .tc main_arg7)) (W1 m ρ c (Proc.devRef .tc main_arg8)) (W1 m ρ c (Proc.devRef .tc main_arg9)) (W1 m ρ c (Proc.devRef .tc main_arg10)) = _
  rw [W1_v38, W1_arg2, W1_arg7, W1_arg8, W1_arg9, W1_arg10]
  funext i
  obtain ⟨P, q, rfl⟩ : ∃ (P : Fin 600000) (q : Fin 128), i = ix2 P q := ⟨i 0, i 1, eq_ix2 i⟩
  exact edgeMsg_congr (a := 600000) (a' := 600000) _ _ (W1 m ρ c (Proc.devRef .tc main_v39)) _ _ (Cert.ReferenceIdeal.Read.val_main_v49 (F := Ideal) (m ((c : Thread nD τ).loc main_arg1)))
    _ _ _ _ P P q rfl (fun _ => rfl) (col_eq m ρ c P)

/-! ## The combined array the node region finds is the reference's -/

theorem comb_eq : W3 m ρ c (Proc.devRef .tc main_v47) = Cert.ReferenceIdeal.Read.val_main_v58 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) := by
  have e : W3 m ρ c (Proc.devRef .tc main_v47)
      = addf (mulf (broadcastInDim S100000x128 ![] bcast_S_S100000x128 (addf (constant (F := Ideal) S_ .f32 0x3F800000#32) (W2 m ρ c (Proc.devRef .tc main_arg11))))
            (W2 m ρ c (Proc.devRef .tc main_arg0)))
          (Host.scatterAdd (F := Ideal) scatter_S100000x128_S600000x1_S600000x128_1_0_0_1
            (broadcastInDim S100000x128 ![] bcast_S_S100000x128 (constant (F := Ideal) S_ .f32 0x00000000#32))
            (broadcastInDim S600000x1 ![0] bcast_S600000_S600000x1_0 (W2 m ρ c (Proc.devRef .tc main_v3)))
            (W2 m ρ c (Proc.devRef .tc main_v40))) := by
    show StableHlo.after hostOps1 (W2 m ρ c) (Proc.devRef .tc main_v47) = _
    after_results
  rw [e, W2_arg11, W2_arg0, W2_v3, msgs_eq]
  rfl

/-! ## The result -/

/-- The result array at the last boundary is the reference's result stage of the launch memory's arguments. -/
theorem result_eq : W4 m ρ c (Proc.devRef .tc main_v48) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 7).trans ((NodeArr.final (V3 m ρ) c).trans ?_)
  rw [Cert.ReferenceIdeal.RefValue.out_eq]
  show nodeOut (a := 100000) (W3 m ρ c (Proc.devRef .tc main_v47)) (W3 m ρ c (Proc.devRef .tc main_arg0)) (W3 m ρ c (Proc.devRef .tc main_arg3))
      (W3 m ρ c (Proc.devRef .tc main_arg4)) (W3 m ρ c (Proc.devRef .tc main_arg5)) (W3 m ρ c (Proc.devRef .tc main_arg6)) (W3 m ρ c (Proc.devRef .tc main_arg12)) = _
  rw [comb_eq, W3_arg0, W3_arg3, W3_arg4, W3_arg5, W3_arg6, W3_arg12]

end Cert.KernelIdeal.KerValue

end
-- ==== Proof.lean ====
/-
  The kernel program is one layer of message passing with edge features followed by a node update, in two launches:
  the first computes, for every edge, the message `(x[src] + mlp(edge features)) · w`, with `w` the edge's weight
  from the degrees of its end nodes; the host sums the messages into their target nodes and adds `(1 + ε) x`; the
  second computes, for every node, `mlp(combined) + x`, divides it by the root of its mean square over the 128
  columns (plus a small constant) and multiplies by a gain. The reference computes the same with host operations.

  Read at the ideal values the two programs are the same operations in the same order. Each launch works on blocks
  of 10000 rows, and every entry of a block's result reads one row of the row-indexed operands, so the blocks of the
  result are blocks of ONE function of the whole arrays (Spec.lean; EdgeArr.lean, NodeArr.lean); a matrix product into
  zero is the host's product, a lane sum from zero the host's sum, entry by entry (VecSpelling.lean, RefEdge.lean,
  RefNode.lean). The gathers, the scatters and the degree weights are the same host operations on both sides and are
  never opened (KerValue.lean). No law of the extended reals that needs finiteness is used, so the precondition is
  not opened either.

  The two kernel programs' frames (every execution ends, nothing faults, the arguments end unchanged) are the frame
  theorems of KernelFrameP.lean and KernelIdealFrameP.lean; the reference's frame is its run with the result dropped;
  the ledger of the idealisation is empty, so there is nothing to preserve.
-/
import proofs.«145459_j88630945120295_1_alg».proof.Defs
import proofs.«145459_j88630945120295_1_alg».proof.Proof.Gen.Kernel
import proofs.«145459_j88630945120295_1_alg».proof.Proof.Gen.KernelIdeal
import proofs.«145459_j88630945120295_1_alg».proof.Proof.Gen.ReferenceIdeal
import proofs.«145459_j88630945120295_1_alg».proof.Proof.Gen.ReferenceIdeal.Run
import proofs.«145459_j88630945120295_1_alg».proof.Proof.Gen.ReferenceIdeal.Read
import proofs.«145459_j88630945120295_1_alg».proof.Proof.Gen.Pre_finite_inputs
import proofs.«145459_j88630945120295_1_alg».proof.Proof.KernelFrameP
import proofs.«145459_j88630945120295_1_alg».proof.Proof.KernelIdealFrameP
import proofs.«145459_j88630945120295_1_alg».proof.Proof.KerRun
import proofs.«145459_j88630945120295_1_alg».proof.Proof.KerValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the arguments: the kernel program by its value read
    through the run's boundaries, the reference by its run; the arguments agree. -/
theorem algebraic : Cert.algebraic_KernelIdeal_ReferenceIdeal := by
  intro m ρ m' ρ' _ hagree
  refine ⟨fun c => Cert.KernelIdeal.GenP.W4 m ρ c (Proc.devRef .tc Cert.KernelIdeal.main_v48),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v81 m' c
    = Cert.KernelIdeal.GenP.W4 m ρ c (Proc.devRef .tc Cert.KernelIdeal.main_v48)
  obtain ⟨h0, h1, h2, h3, h4, h5, h6, h7, h8, h9, h10, h11, h12⟩ := hagree c
  rw [Cert.ReferenceIdeal.Read.val_main_v81_eq, Cert.KernelIdeal.KerValue.result_eq m ρ c,
    h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
